-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000 : S_.BroadcastsInDim S625000 (![] : Fin 0 → Fin S625000.rank)
  reducesTo_S625000_S_d0 : S625000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128 .f32) (main_arg7 : FVec F S128x128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S625000 32) (main_arg2 : IVec S625000 32) (main_arg3 : FVec F S625000 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000 .f32 := Host.absf main_arg3
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S50000 : Shape := ⟨1, ![50000]⟩
abbrev S625000x1 : Shape := ⟨2, ![625000, 1]⟩
abbrev S50000x1 : Shape := ⟨2, ![50000, 1]⟩
abbrev S625000x128 : Shape := ⟨2, ![625000, 128]⟩
abbrev S1x128 : Shape := ⟨2, ![1, 128]⟩
abbrev S2000x128 : Shape := ⟨2, ![2000, 128]⟩

abbrev nBuf : Space → Nat
  | .hbm => 67
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S625000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S625000, .f32⟩
  | .hbm, ⟨12, _⟩ => ⟨S_, .f32⟩
  | .hbm, ⟨13, _⟩ => ⟨S50000, .f32⟩
  | .hbm, ⟨14, _⟩ => ⟨S625000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .i32⟩
  | .hbm, ⟨24, _⟩ => ⟨S625000, .i32⟩
  | .hbm, ⟨25, _⟩ => ⟨S625000, .i1⟩
  | .hbm, ⟨26, _⟩ => ⟨S_, .i32⟩
  | .hbm, ⟨27, _⟩ => ⟨S625000, .i32⟩
  | .hbm, ⟨28, _⟩ => ⟨S625000, .i32⟩
  | .hbm, ⟨29, _⟩ => ⟨S625000, .i32⟩
  | .hbm, ⟨30, _⟩ => ⟨S625000x1, .i32⟩
  | .hbm, ⟨31, _⟩ => ⟨S625000x128, .f32⟩
  | .hbm, ⟨32, _⟩ => ⟨S625000x1, .f32⟩
  | .hbm, ⟨33, _⟩ => ⟨S625000x128, .f32⟩
  | .hbm, ⟨34, _⟩ => ⟨S625000x128, .f32⟩
  | .hbm, ⟨35, _⟩ => ⟨S_, .f32⟩
  | .hbm, ⟨36, _⟩ => ⟨S50000x128, .f32⟩
  | .hbm, ⟨37, _⟩ => ⟨S625000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S625000, .i32⟩
  | .hbm, ⟨47, _⟩ => ⟨S625000, .i1⟩
  | .hbm, ⟨48, _⟩ => ⟨S_, .i32⟩
  | .hbm, ⟨49, _⟩ => ⟨S625000, .i32⟩
  | .hbm, ⟨50, _⟩ => ⟨S625000, .i32⟩
  | .hbm, ⟨51, _⟩ => ⟨S625000, .i32⟩
  | .hbm, ⟨52, _⟩ => ⟨S625000x1, .i32⟩
  | .hbm, ⟨53, _⟩ => ⟨S625000x128, .f32⟩
  | .hbm, ⟨54, _⟩ => ⟨S625000x1, .f32⟩
  | .hbm, ⟨55, _⟩ => ⟨S625000x128, .f32⟩
  | .hbm, ⟨56, _⟩ => ⟨S625000x128, .f32⟩
  | .hbm, ⟨57, _⟩ => ⟨S_, .f32⟩
  | .hbm, ⟨58, _⟩ => ⟨S50000x128, .f32⟩
  | .hbm, ⟨59, _⟩ => ⟨S625000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S50000_S50000x1_0 : S50000.BroadcastsInDim S50000x1 (![0] : Fin 1 → Fin S50000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S625000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S625000, .i32⟩
  | .hbm, ⟨12, _⟩ => ⟨S625000, .i1⟩
  | .hbm, ⟨13, _⟩ => ⟨S_, .i32⟩
  | .hbm, ⟨14, _⟩ => ⟨S625000, .i32⟩
  | .hbm, ⟨15, _⟩ => ⟨S625000, .i32⟩
  | .hbm, ⟨16, _⟩ => ⟨S625000, .i32⟩
  | .hbm, ⟨17, _⟩ => ⟨S625000x1, .i32⟩
  | .hbm, ⟨18, _⟩ => ⟨S625000x128, .f32⟩
  | .hbm, ⟨19, _⟩ => ⟨S625000x1, .f32⟩
  | .hbm, ⟨20, _⟩ => ⟨S625000x128, .f32⟩
  | .hbm, ⟨21, _⟩ => ⟨S625000x128, .f32⟩
  | .hbm, ⟨22, _⟩ => ⟨S_, .f32⟩
  | .hbm, ⟨23, _⟩ => ⟨S50000x128, .f32⟩
  | .hbm, ⟨24, _⟩ => ⟨S625000x1, .i32⟩
  | .hbm, ⟨25, _⟩ => ⟨S50000x128, .f32⟩
  | .hbm, ⟨26, _⟩ => ⟨S_, .f32⟩
  | .hbm, ⟨27, _⟩ => ⟨S625000, .f32⟩
  | .hbm, ⟨28, _⟩ => ⟨S_, .f32⟩
  | .hbm, ⟨29, _⟩ => ⟨S50000, .f32⟩
  | .hbm, ⟨30, _⟩ => ⟨S625000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S625000, .i32⟩
  | .hbm, ⟨51, _⟩ => ⟨S625000, .i1⟩
  | .hbm, ⟨52, _⟩ => ⟨S_, .i32⟩
  | .hbm, ⟨53, _⟩ => ⟨S625000, .i32⟩
  | .hbm, ⟨54, _⟩ => ⟨S625000, .i32⟩
  | .hbm, ⟨55, _⟩ => ⟨S625000, .i32⟩
  | .hbm, ⟨56, _⟩ => ⟨S625000x1, .i32⟩
  | .hbm, ⟨57, _⟩ => ⟨S625000x128, .f32⟩
  | .hbm, ⟨58, _⟩ => ⟨S625000x1, .f32⟩
  | .hbm, ⟨59, _⟩ => ⟨S625000x128, .f32⟩
  | .hbm, ⟨60, _⟩ => ⟨S625000x128, .f32⟩
  | .hbm, ⟨61, _⟩ => ⟨S_, .f32⟩
  | .hbm, ⟨62, _⟩ => ⟨S50000x128, .f32⟩
  | .hbm, ⟨63, _⟩ => ⟨S625000x1, .i32⟩
  | .hbm, ⟨64, _⟩ => ⟨S50000x128, .f32⟩
  | .hbm, ⟨65, _⟩ => ⟨S_, .f32⟩
  | .hbm, ⟨66, _⟩ => ⟨S625000, .f32⟩
  | .hbm, ⟨67, _⟩ => ⟨S_, .f32⟩
  | .hbm, ⟨68, _⟩ => ⟨S50000, .f32⟩
  | .hbm, ⟨69, _⟩ => ⟨S625000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with its result array named.

  @main is a stretch of host operations, the first dense-layer region, a second stretch, the second region. The
  buffers' contents at the four boundaries are a fold through @main; every weakly fair execution ends with each
  buffer the cores share at the last boundary's contents. Read at the result buffer that is what the second region's
  write-backs leave; read at an argument it is what was launched.
-/
import proofs.«104862_j3315714752647_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_result : θ_run defs (onTc (τ := τ) (main (F := F))) ⟨m, fun _ => 0, ρ⟩ (fun r => ∀ c : Dev nD,
      r.2.mem ((c.tc : Thread nD τ).loc main_v46) = V4 m ρ c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Run

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.KernelBody.lean ====
/-
  What one grid point of either dense-layer kernel stores, read at an entry of its block, on the extended reals.

  Both kernel bodies load a block of node features and a block of neighbour aggregates (`[2000, 128]` each), the two
  weight matrices whole (`[128, 128]`) and the bias as one row (`[1, 128]`); the roundings to bf16 on the way into the
  matrix unit are the identity on the extended reals and a shape cast to the same shape is the identity. What is
  stored at row `p`, channel `q` of the block is
      (∑ₖ x0(p,k)·x2(k,q) + ∑ₖ x1(p,k)·x3(k,q)) + x4(0,q),
  each matrix product a sum over the one contracted coordinate; the first kernel then takes max(·, 0).
-/
import proofs.«104862_j3315714752647_2_alg».proof.Proof.Gen.KernelIdeal.Skeleton
import proofs.«104862_j3315714752647_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The body's contraction: rows of the left block against columns of the weight matrix -/

theorem dot_l0 (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_l1 (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem dot_r0 (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem dot_r1 (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One of the body's matrix products into the zero accumulator, at `(p, q)`: the sum over the contracted coordinate. -/
theorem mm_apply (L : FVec Ideal S2000x128 .bf16) (R : FVec Ideal S128x128 .bf16) (p : Fin 2000) (q : Fin 128) :
    matmul dot_S2000x128_S128x128_S2000x128_1_0_0_1_n_n none L R (constant (F := Ideal) S2000x128 .f32 0x00000000#32) (ix2 p q)
      = ∑ k : Fin 128, L (ix2 p k) * R (ix2 k q) := by
  simp only [matmul]
  rw [Ideal.matmul_constant_zero_apply]
  exact Cert.Lib.PlainDot.sum_rows_cols dot_S2000x128_S128x128_S2000x128_1_0_0_1_n_n rfl rfl dot_l0 dot_l1 dot_r0 dot_r1 L R (ix2 p q)

/-- The sum of the two products plus the bias row, at `(p, q)`: what both bodies compute before the store. -/
def dense (x0 x1 : Vec Ideal S2000x128 .f32) (x2 x3 : Vec Ideal S128x128 .f32) (x4 : Vec Ideal S1x128 .f32) (p : Fin 2000) (q : Fin 128) : EReal :=
  (∑ k : Fin 128, x0 (ix2 p k) * x2 (ix2 k q) + ∑ k : Fin 128, x1 (ix2 p k) * x3 (ix2 k q)) + x4 (ix2 (0 : Fin 1) q)

/-- The first kernel's stored value at `(p, q)`. -/
theorem pay0_apply (x0 x1 : Vec Ideal S2000x128 .f32) (x2 x3 : Vec Ideal S128x128 .f32) (x4 : Vec Ideal S1x128 .f32) (p : Fin 2000) (q : Fin 128) :
    k0_pay1 (F := Ideal) x0 x1 x2 x3 x4 (ix2 p q) = max (dense x0 x1 x2 x3 x4 p q) 0 := by
  unfold k0_pay1 dense
  rw [shapeCast_self, shapeCast_self, shapeCast_self, shapeCast_self]
  show max ((matmul (F := Ideal) dot_S2000x128_S128x128_S2000x128_1_0_0_1_n_n none _ _ _ (ix2 p q) + matmul (F := Ideal) dot_S2000x128_S128x128_S2000x128_1_0_0_1_n_n none _ _ _ (ix2 p q)) + broadcastTo S2000x128 x4 _ (ix2 p q)) (Ideal.ofBits .f32 0x00000000#32) = _
  rw [mm_apply, mm_apply, broadcastTo_1b_ab_apply, Ideal.ofBits_zero_f32]
  rfl

/-- The second kernel's stored value at `(p, q)`. -/
theorem pay1_apply (x0 x1 : Vec Ideal S2000x128 .f32) (x2 x3 : Vec Ideal S128x128 .f32) (x4 : Vec Ideal S1x128 .f32) (p : Fin 2000) (q : Fin 128) :
    k1_pay1 (F := Ideal) x0 x1 x2 x3 x4 (ix2 p q) = dense x0 x1 x2 x3 x4 p q := by
  unfold k1_pay1 dense
  rw [shapeCast_self, shapeCast_self, shapeCast_self, shapeCast_self, shapeCast_self]
  show (matmul (F := Ideal) dot_S2000x128_S128x128_S2000x128_1_0_0_1_n_n none _ _ _ (ix2 p q) + matmul (F := Ideal) dot_S2000x128_S128x128_S2000x128_1_0_0_1_n_n none _ _ _ (ix2 p q)) + broadcastTo S2000x128 x4 _ (ix2 p q) = _
  rw [mm_apply, mm_apply, broadcastTo_1b_ab_apply]
  rfl

end Cert.KernelIdeal.Body

end
-- ==== Proof.SageSpec.lean ====
/-
  One layer of a mean-aggregating graph convolution on the extended reals, entry by entry, and the one law that
  joins the two ways of normalising the aggregated neighbours.

  A layer takes the node features `h`, the normalised neighbour aggregate `hn` (both `[50000, 128]`), two weight
  matrices already transposed for the product (`[128, 128]`, contracted on their first axis) and a bias vector, and
  gives at node `r`, channel `c`
      (∑ₖ h(r,k)·ws(k,c) + ∑ₖ hn(r,k)·wn(k,c)) + b(c).
  The first layer is followed by max(·, 0).

  The neighbour aggregate is divided by the in-degree clamped below at one, `m = max d 1`. One program multiplies by
  the reciprocal `1 / m`, the other divides by `m`. Since `m ≥ 1` it is not zero, so both are `a · m⁻¹` on the
  extended reals, whatever `a` and `d` are (infinite values included): no finiteness is used.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The node-feature arrays, the weight matrices, the bias vectors and the degree vectors. -/
abbrev SN : Shape := ⟨2, ![50000, 128]⟩
abbrev SW : Shape := ⟨2, ![128, 128]⟩
abbrev SB : Shape := ⟨1, ![128]⟩
abbrev SD : Shape := ⟨1, ![50000]⟩

/-- One layer at node `r`, channel `c`. -/
def layerAt (h hn : SN.Idx → EReal) (ws wn : SW.Idx → EReal) (b : SB.Idx → EReal) (r : Fin 50000) (c : Fin 128) : EReal :=
  (∑ k : Fin 128, h (ix2 r k) * ws (ix2 k c) + ∑ k : Fin 128, hn (ix2 r k) * wn (ix2 k c)) + b (ix1 c)

/-- One layer as an array. -/
def layer (h hn : SN.Idx → EReal) (ws wn : SW.Idx → EReal) (b : SB.Idx → EReal) : SN.Idx → EReal :=
  fun j => layerAt h hn ws wn b (j 0) (j 1)

/-- One layer followed by max(·, 0). -/
def layerRelu (h hn : SN.Idx → EReal) (ws wn : SW.Idx → EReal) (b : SB.Idx → EReal) : SN.Idx → EReal :=
  fun j => max (layerAt h hn ws wn b (j 0) (j 1)) 0

theorem layer_apply (h hn : SN.Idx → EReal) (ws wn : SW.Idx → EReal) (b : SB.Idx → EReal) (r : Fin 50000) (c : Fin 128) :
    layer h hn ws wn b (ix2 r c) = layerAt h hn ws wn b r c := rfl

theorem layerRelu_apply (h hn : SN.Idx → EReal) (ws wn : SW.Idx → EReal) (b : SB.Idx → EReal) (r : Fin 50000) (c : Fin 128) :
    layerRelu h hn ws wn b (ix2 r c) = max (layerAt h hn ws wn b r c) 0 := rfl

/-- A degree clamped below at one is not zero. -/
theorem max_one_ne_zero (d : EReal) : max d 1 ≠ 0 :=
  ne_of_gt (lt_of_lt_of_le zero_lt_one (le_max_right d 1))

/-- Multiplying by the reciprocal of the clamped degree is dividing by it, for every extended real. -/
theorem mul_recip_clamped (a d : EReal) : a * Ideal.div 1 (max d 1) = Ideal.div a (max d 1) := by
  unfold Ideal.div
  rw [if_neg (max_one_ne_zero d), if_neg (max_one_ne_zero d), one_mul]

end Cert.Sage

end
-- ==== Proof.KernelRegion0.lean ====
/-
  The first dense-layer region: the array its write-backs leave, as one function of the arrays the region finds.

  The grid has 25 points. At point `t` the node-feature window and the neighbour window hold rows
  `2000·t … 2000·t + 1999` of their arrays, the two weight windows and the bias window hold their whole arrays at
  every point, and the output window writes back rows `2000·t … 2000·t + 1999`. The body's stored value at row `p`
  of the block depends on the inputs only through row `p` of the two row blocks, so what point `t` writes back is
  block `t` of the layer of the whole arrays; the 25 blocks tile the 50000 rows, so the array ends holding the layer.
  Stated for any contents `V` the region is entered with.
-/
import proofs.«104862_j3315714752647_2_alg».proof.Proof.Gen.KernelIdeal.Frame
import proofs.«104862_j3315714752647_2_alg».proof.Proof.KernelBody
import proofs.«104862_j3315714752647_2_alg».proof.Proof.SageSpec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows and the output move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read at an entry -/

/-- Window 0's block at point `t` is rows `2000·t … 2000·t + 1999` of its array. -/
theorem iblk_0_apply (c : Dev nD) (t : Fin cfg0.N) (p : Fin 2000) (k : Fin 128) (h : 2000 * t.val + p.val < 50000) :
    (iblk0 V c 0 t : Vec Ideal S2000x128 .f32) (ix2 p k) = (V c main_arg0 : S50000x128.Idx → EReal) (ix2 ⟨2000 * t.val + p.val, h⟩ k) := by
  obtain ⟨e00, e01, e10, e11, e20, e21, e30, e31, e40, e41, e50, e51⟩ := idx_facts t
  unfold iblk0
  rw [View.read_apply]
  show V c main_arg0 _ = V c main_arg0 _
  refine congrArg (V c main_arg0) (funext fun a => Fin.ext ?_)
  match a with
  | ⟨0, _⟩ => show win0_0.index t 0 * 2000 + 1 * p.val = 2000 * t.val + p.val; rw [e00]; omega
  | ⟨1, _⟩ => show win0_0.index t 1 * 128 + 1 * k.val = k.val; rw [e01]; omega

/-- Window 1's block at point `t` is rows `2000·t … 2000·t + 1999` of its array. -/
theorem iblk_1_apply (c : Dev nD) (t : Fin cfg0.N) (p : Fin 2000) (k : Fin 128) (h : 2000 * t.val + p.val < 50000) :
    (iblk0 V c 1 t : Vec Ideal S2000x128 .f32) (ix2 p k) = (V c main_v23 : S50000x128.Idx → EReal) (ix2 ⟨2000 * t.val + p.val, h⟩ k) := by
  obtain ⟨e00, e01, e10, e11, e20, e21, e30, e31, e40, e41, e50, e51⟩ := idx_facts t
  unfold iblk0
  rw [View.read_apply]
  show V c main_v23 _ = V c main_v23 _
  refine congrArg (V c main_v23) (funext fun a => Fin.ext ?_)
  match a with
  | ⟨0, _⟩ => show win0_1.index t 0 * 2000 + 1 * p.val = 2000 * t.val + p.val; rw [e10]; omega
  | ⟨1, _⟩ => show win0_1.index t 1 * 128 + 1 * k.val = k.val; rw [e11]; omega

/-- Window 2's block at every point is its whole array. -/
theorem iblk_2_apply (c : Dev nD) (t : Fin cfg0.N) (x : Fin 128) (y : Fin 128) :
    (iblk0 V c 2 t : Vec Ideal S128x128 .f32) (ix2 x y) = (V c main_v24 : S128x128.Idx → EReal) (ix2 x y) := by
  obtain ⟨e00, e01, e10, e11, e20, e21, e30, e31, e40, e41, e50, e51⟩ := idx_facts t
  unfold iblk0
  rw [View.read_apply]
  show V c main_v24 _ = V c main_v24 _
  refine congrArg (V c main_v24) (funext fun a => Fin.ext ?_)
  match a with
  | ⟨0, _⟩ => show win0_2.index t 0 * 128 + 1 * x.val = x.val; rw [e20]; omega
  | ⟨1, _⟩ => show win0_2.index t 1 * 128 + 1 * y.val = y.val; rw [e21]; omega

/-- Window 3's block at every point is its whole array. -/
theorem iblk_3_apply (c : Dev nD) (t : Fin cfg0.N) (x : Fin 128) (y : Fin 128) :
    (iblk0 V c 3 t : Vec Ideal S128x128 .f32) (ix2 x y) = (V c main_v25 : S128x128.Idx → EReal) (ix2 x y) := by
  obtain ⟨e00, e01, e10, e11, e20, e21, e30, e31, e40, e41, e50, e51⟩ := idx_facts t
  unfold iblk0
  rw [View.read_apply]
  show V c main_v25 _ = V c main_v25 _
  refine congrArg (V c main_v25) (funext fun a => Fin.ext ?_)
  match a with
  | ⟨0, _⟩ => show win0_3.index t 0 * 128 + 1 * x.val = x.val; rw [e30]; omega
  | ⟨1, _⟩ => show win0_3.index t 1 * 128 + 1 * y.val = y.val; rw [e31]; omega

/-- Window 4's block at every point is its whole array. -/
theorem iblk_4_apply (c : Dev nD) (t : Fin cfg0.N) (x : Fin 1) (y : Fin 128) :
    (iblk0 V c 4 t : Vec Ideal S1x128 .f32) (ix2 x y) = (V c main_v26 : S1x128.Idx → EReal) (ix2 x y) := by
  obtain ⟨e00, e01, e10, e11, e20, e21, e30, e31, e40, e41, e50, e51⟩ := idx_facts t
  unfold iblk0
  rw [View.read_apply]
  show V c main_v26 _ = V c main_v26 _
  refine congrArg (V c main_v26) (funext fun a => Fin.ext ?_)
  match a with
  | ⟨0, _⟩ => show win0_4.index t 0 * 1 + 1 * x.val = x.val; rw [e40]; omega
  | ⟨1, _⟩ => show win0_4.index t 1 * 128 + 1 * y.val = y.val; rw [e41]; omega

/-! ## What the region's array ends holding -/

/-- The layer of the arrays the region finds; the bias array is one row. -/
def G (c : Dev nD) : S50000x128.Idx → EReal :=
  Cert.Sage.layerRelu (V c main_arg0) (V c main_v23) (V c main_v24) (V c main_v25)
    (fun i => (V c main_v26 : S1x128.Idx → EReal) (ix2 (0 : Fin 1) (i 0)))

/-- What point `t` writes back is block `t` of `G`. -/
theorem flushed_eq (c : Dev nD) (t : Fin cfg0.N) :
    (dat0 V c).flushed 5 t = ((cfg0.win 5).blk t).view.read (Elt Ideal) (G V c) := by
  have hN : cfg0.N = 25 := N_0
  have ht : t.val < 25 := hN ▸ t.isLt
  obtain ⟨e00, e01, e10, e11, e20, e21, e30, e31, e40, e41, e50, e51⟩ := idx_facts t
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have hp : 2000 * t.val + p.val < 50000 := by have := p.isLt; omega
  rw [View.read_apply]
  have hemb : ((cfg0.win 5).blk t).view.emb (ix2 p q) = (ix2 ⟨2000 * t.val + p.val, hp⟩ q : S50000x128.Idx) := funext fun a => Fin.ext (by
    match a with
    | ⟨0, _⟩ => show win0_5.index t 0 * 2000 + 1 * p.val = 2000 * t.val + p.val; rw [e50]; omega
    | ⟨1, _⟩ => show win0_5.index t 1 * 128 + 1 * q.val = q.val; rw [e51]; omega)
  rw [hemb]
  refine (pay0_apply (iblk0 V c 0 t) (iblk0 V c 1 t) (iblk0 V c 2 t) (iblk0 V c 3 t) (iblk0 V c 4 t) p q).trans ?_
  show _ = G V c (ix2 ⟨2000 * t.val + p.val, hp⟩ q)
  unfold G
  rw [Cert.Sage.layerRelu_apply]
  refine congrArg (max · 0) ?_
  unfold dense Cert.Sage.layerAt
  refine congrArg₂ (· + ·) (congrArg₂ (· + ·) (Finset.sum_congr rfl fun k _ => ?_) (Finset.sum_congr rfl fun k _ => ?_)) ?_
  · exact congrArg₂ (· * ·) (iblk_0_apply V c t p k hp) (iblk_2_apply V c t k q)
  · exact congrArg₂ (· * ·) (iblk_1_apply V c t p k hp) (iblk_3_apply V c t k q)
  · exact iblk_4_apply V c t 0 q

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v27).slice (win0_5.rect t)).set ↔ _
  rw [View.set_slice_whole, Rect.mem_set_unit]
  exact Iff.rfl

/-- Row `r` of the array is in the block of point `r / 2000`. -/
theorem cover (i : S50000x128.Idx) : ∃ t : Fin cfg0.N, (cfg0.win 5).flush t = true ∧ i ∈ ((cfg0.win 5).blk t).view.set := by
  have hN : cfg0.N = 25 := N_0
  have hi0 : (i 0).val < 50000 := (i 0).isLt
  have hi1 : (i 1).val < 128 := (i 1).isLt
  have htl : (i 0).val / 2000 < cfg0.N := by rw [hN]; omega
  refine ⟨⟨(i 0).val / 2000, htl⟩, flush0_5 _, ?_⟩
  obtain ⟨e00, e01, e10, e11, e20, e21, e30, e31, e40, e41, e50, e51⟩ := idx_facts ⟨(i 0).val / 2000, htl⟩
  rw [mem_blk]
  intro a
  match a with
  | ⟨0, _⟩ => show win0_5.index ⟨(i 0).val / 2000, htl⟩ 0 * 2000 ≤ (i 0).val ∧ (i 0).val < win0_5.index ⟨(i 0).val / 2000, htl⟩ 0 * 2000 + 2000; rw [e50]; show (i 0).val / 2000 * 2000 ≤ (i 0).val ∧ (i 0).val < (i 0).val / 2000 * 2000 + 2000; omega
  | ⟨1, _⟩ => show win0_5.index ⟨(i 0).val / 2000, htl⟩ 1 * 128 ≤ (i 1).val ∧ (i 1).val < win0_5.index ⟨(i 0).val / 2000, htl⟩ 1 * 128 + 128; rw [e51]; omega

/-- The region's array after the run is the layer of the arrays it found. -/
theorem final (c : Dev nD) : (dat0 V c).arrAt 5 cfg0.N = G V c :=
  (dat0 V c).arrAt_eq_of_cover 5 (G V c) (fun t _ => flushed_eq V c t) cover

end Cert.KernelIdeal.Region0

end
-- ==== Proof.KernelRegion1.lean ====
/-
  The second dense-layer region: the array its write-backs leave, as one function of the arrays the region finds.

  The grid has 25 points. At point `t` the node-feature window and the neighbour window hold rows
  `2000·t … 2000·t + 1999` of their arrays, the two weight windows and the bias window hold their whole arrays at
  every point, and the output window writes back rows `2000·t … 2000·t + 1999`. The body's stored value at row `p`
  of the block depends on the inputs only through row `p` of the two row blocks, so what point `t` writes back is
  block `t` of the layer of the whole arrays; the 25 blocks tile the 50000 rows, so the array ends holding the layer.
  Stated for any contents `V` the region is entered with.
-/
import proofs.«104862_j3315714752647_2_alg».proof.Proof.Gen.KernelIdeal.Frame
import proofs.«104862_j3315714752647_2_alg».proof.Proof.KernelBody
import proofs.«104862_j3315714752647_2_alg».proof.Proof.SageSpec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows and the output move with the point, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks, read at an entry -/

/-- Window 0's block at point `t` is rows `2000·t … 2000·t + 1999` of its array. -/
theorem iblk_0_apply (c : Dev nD) (t : Fin cfg1.N) (p : Fin 2000) (k : Fin 128) (h : 2000 * t.val + p.val < 50000) :
    (iblk1 V c 0 t : Vec Ideal S2000x128 .f32) (ix2 p k) = (V c main_v27 : S50000x128.Idx → EReal) (ix2 ⟨2000 * t.val + p.val, h⟩ k) := by
  obtain ⟨e00, e01, e10, e11, e20, e21, e30, e31, e40, e41, e50, e51⟩ := idx_facts t
  unfold iblk1
  rw [View.read_apply]
  show V c main_v27 _ = V c main_v27 _
  refine congrArg (V c main_v27) (funext fun a => Fin.ext ?_)
  match a with
  | ⟨0, _⟩ => show win1_0.index t 0 * 2000 + 1 * p.val = 2000 * t.val + p.val; rw [e00]; omega
  | ⟨1, _⟩ => show win1_0.index t 1 * 128 + 1 * k.val = k.val; rw [e01]; omega

/-- Window 1's block at point `t` is rows `2000·t … 2000·t + 1999` of its array. -/
theorem iblk_1_apply (c : Dev nD) (t : Fin cfg1.N) (p : Fin 2000) (k : Fin 128) (h : 2000 * t.val + p.val < 50000) :
    (iblk1 V c 1 t : Vec Ideal S2000x128 .f32) (ix2 p k) = (V c main_v42 : S50000x128.Idx → EReal) (ix2 ⟨2000 * t.val + p.val, h⟩ k) := by
  obtain ⟨e00, e01, e10, e11, e20, e21, e30, e31, e40, e41, e50, e51⟩ := idx_facts t
  unfold iblk1
  rw [View.read_apply]
  show V c main_v42 _ = V c main_v42 _
  refine congrArg (V c main_v42) (funext fun a => Fin.ext ?_)
  match a with
  | ⟨0, _⟩ => show win1_1.index t 0 * 2000 + 1 * p.val = 2000 * t.val + p.val; rw [e10]; omega
  | ⟨1, _⟩ => show win1_1.index t 1 * 128 + 1 * k.val = k.val; rw [e11]; omega

/-- Window 2's block at every point is its whole array. -/
theorem iblk_2_apply (c : Dev nD) (t : Fin cfg1.N) (x : Fin 128) (y : Fin 128) :
    (iblk1 V c 2 t : Vec Ideal S128x128 .f32) (ix2 x y) = (V c main_v43 : S128x128.Idx → EReal) (ix2 x y) := by
  obtain ⟨e00, e01, e10, e11, e20, e21, e30, e31, e40, e41, e50, e51⟩ := idx_facts t
  unfold iblk1
  rw [View.read_apply]
  show V c main_v43 _ = V c main_v43 _
  refine congrArg (V c main_v43) (funext fun a => Fin.ext ?_)
  match a with
  | ⟨0, _⟩ => show win1_2.index t 0 * 128 + 1 * x.val = x.val; rw [e20]; omega
  | ⟨1, _⟩ => show win1_2.index t 1 * 128 + 1 * y.val = y.val; rw [e21]; omega

/-- Window 3's block at every point is its whole array. -/
theorem iblk_3_apply (c : Dev nD) (t : Fin cfg1.N) (x : Fin 128) (y : Fin 128) :
    (iblk1 V c 3 t : Vec Ideal S128x128 .f32) (ix2 x y) = (V c main_v44 : S128x128.Idx → EReal) (ix2 x y) := by
  obtain ⟨e00, e01, e10, e11, e20, e21, e30, e31, e40, e41, e50, e51⟩ := idx_facts t
  unfold iblk1
  rw [View.read_apply]
  show V c main_v44 _ = V c main_v44 _
  refine congrArg (V c main_v44) (funext fun a => Fin.ext ?_)
  match a with
  | ⟨0, _⟩ => show win1_3.index t 0 * 128 + 1 * x.val = x.val; rw [e30]; omega
  | ⟨1, _⟩ => show win1_3.index t 1 * 128 + 1 * y.val = y.val; rw [e31]; omega

/-- Window 4's block at every point is its whole array. -/
theorem iblk_4_apply (c : Dev nD) (t : Fin cfg1.N) (x : Fin 1) (y : Fin 128) :
    (iblk1 V c 4 t : Vec Ideal S1x128 .f32) (ix2 x y) = (V c main_v45 : S1x128.Idx → EReal) (ix2 x y) := by
  obtain ⟨e00, e01, e10, e11, e20, e21, e30, e31, e40, e41, e50, e51⟩ := idx_facts t
  unfold iblk1
  rw [View.read_apply]
  show V c main_v45 _ = V c main_v45 _
  refine congrArg (V c main_v45) (funext fun a => Fin.ext ?_)
  match a with
  | ⟨0, _⟩ => show win1_4.index t 0 * 1 + 1 * x.val = x.val; rw [e40]; omega
  | ⟨1, _⟩ => show win1_4.index t 1 * 128 + 1 * y.val = y.val; rw [e41]; omega

/-! ## What the region's array ends holding -/

/-- The layer of the arrays the region finds; the bias array is one row. -/
def G (c : Dev nD) : S50000x128.Idx → EReal :=
  Cert.Sage.layer (V c main_v27) (V c main_v42) (V c main_v43) (V c main_v44)
    (fun i => (V c main_v45 : S1x128.Idx → EReal) (ix2 (0 : Fin 1) (i 0)))

/-- What point `t` writes back is block `t` of `G`. -/
theorem flushed_eq (c : Dev nD) (t : Fin cfg1.N) :
    (dat1 V c).flushed 5 t = ((cfg1.win 5).blk t).view.read (Elt Ideal) (G V c) := by
  have hN : cfg1.N = 25 := N_1
  have ht : t.val < 25 := hN ▸ t.isLt
  obtain ⟨e00, e01, e10, e11, e20, e21, e30, e31, e40, e41, e50, e51⟩ := idx_facts t
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have hp : 2000 * t.val + p.val < 50000 := by have := p.isLt; omega
  rw [View.read_apply]
  have hemb : ((cfg1.win 5).blk t).view.emb (ix2 p q) = (ix2 ⟨2000 * t.val + p.val, hp⟩ q : S50000x128.Idx) := funext fun a => Fin.ext (by
    match a with
    | ⟨0, _⟩ => show win1_5.index t 0 * 2000 + 1 * p.val = 2000 * t.val + p.val; rw [e50]; omega
    | ⟨1, _⟩ => show win1_5.index t 1 * 128 + 1 * q.val = q.val; rw [e51]; omega)
  rw [hemb]
  refine (pay1_apply (iblk1 V c 0 t) (iblk1 V c 1 t) (iblk1 V c 2 t) (iblk1 V c 3 t) (iblk1 V c 4 t) p q).trans ?_
  show _ = G V c (ix2 ⟨2000 * t.val + p.val, hp⟩ q)
  unfold G
  rw [Cert.Sage.layer_apply]
  unfold dense Cert.Sage.layerAt
  refine congrArg₂ (· + ·) (congrArg₂ (· + ·) (Finset.sum_congr rfl fun k _ => ?_) (Finset.sum_congr rfl fun k _ => ?_)) ?_
  · exact congrArg₂ (· * ·) (iblk_0_apply V c t p k hp) (iblk_2_apply V c t k q)
  · exact congrArg₂ (· * ·) (iblk_1_apply V c t p k hp) (iblk_3_apply V c t k q)
  · exact iblk_4_apply V c t 0 q

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v46).slice (win1_5.rect t)).set ↔ _
  rw [View.set_slice_whole, Rect.mem_set_unit]
  exact Iff.rfl

/-- Row `r` of the array is in the block of point `r / 2000`. -/
theorem cover (i : S50000x128.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  have htl : (i 0).val / 2000 < cfg1.N := by rw [hN]; omega
  refine ⟨⟨(i 0).val / 2000, htl⟩, flush1_5 _, ?_⟩
  obtain ⟨e00, e01, e10, e11, e20, e21, e30, e31, e40, e41, e50, e51⟩ := idx_facts ⟨(i 0).val / 2000, htl⟩
  rw [mem_blk]
  intro a
  match a with
  | ⟨0, _⟩ => show win1_5.index ⟨(i 0).val / 2000, htl⟩ 0 * 2000 ≤ (i 0).val ∧ (i 0).val < win1_5.index ⟨(i 0).val / 2000, htl⟩ 0 * 2000 + 2000; rw [e50]; show (i 0).val / 2000 * 2000 ≤ (i 0).val ∧ (i 0).val < (i 0).val / 2000 * 2000 + 2000; omega
  | ⟨1, _⟩ => show win1_5.index ⟨(i 0).val / 2000, htl⟩ 1 * 128 ≤ (i 1).val ∧ (i 1).val < win1_5.index ⟨(i 0).val / 2000, htl⟩ 1 * 128 + 128; rw [e51]; omega

/-- The region's array after the run is the layer of the arrays it found. -/
theorem final (c : Dev nD) : (dat1 V c).arrAt 5 cfg1.N = G V c :=
  (dat1 V c).arrAt_eq_of_cover 5 (G V c) (fun t _ => flushed_eq V c t) cover

end Cert.KernelIdeal.Region1

end
-- ==== Proof.LibColBroadcast.lean ====
/-
  A vector spread over the columns of a matrix, as jax prints `v[:, None]` meeting an `[a, b]` array.

  The host places a vector `[a]` as the one column of `[a, 1]` and repeats that column over `b` columns (two
  `broadcast_in_dim`s). Read at `(r, c)` the result is the vector at `r`, whatever the column. A scalar spread over
  a whole array reads the scalar at every index. Imports only the Idealize library.
-/
import Idealize.ShloMosaic.Lib.Pipeline.Value
import Idealize.ShloMosaic.Lib.ValueIdx

noncomputable section

namespace Cert.Lib.ColBroadcast

open Idealize.ShloMosaic Idealize.ShloMosaic.ValueIdx

/-- A vector `[a]` placed as the one column of `[a, 1]` and that column repeated over `b` columns reads, at
    `(r, c)`, the vector at `r` (for `a ≠ 1`: the library's lemma asks whether the axis is a unit one). -/
theorem col_apply {α : Type} {a b : ℕ} (ha : a ≠ 1) (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (c : Fin b) :
    broadcastInDim ⟨2, ![a, b]⟩ ![0, 1] h2 (broadcastInDim ⟨2, ![a, 1]⟩ ![0] h1 x) (ix2 r c) = x (ix1 r) :=
  (broadcastInDim_apply ![0, 1] h2 _ (ix2 r c) (ix2 r (⟨0, Nat.one_pos⟩ : Fin 1)) (fun d => match d with
      | ⟨0, _⟩ => by show r.val = if a = 1 then 0 else r.val; rw [if_neg ha]
      | ⟨1, _⟩ => by show (0 : ℕ) = if (1 : ℕ) = 1 then 0 else c.val; rw [if_pos rfl])).trans
    (broadcastInDim_apply ![0] h1 x (ix2 r (⟨0, Nat.one_pos⟩ : Fin 1)) (ix1 r) (fun d => match d with
      | ⟨0, _⟩ => by show r.val = if a = 1 then 0 else r.val; rw [if_neg ha]))

/-- A scalar spread over an array reads the scalar at every index. -/
theorem scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun d => d.elim0)

end Cert.Lib.ColBroadcast

end
-- ==== Proof.SageHost.lean ====
/-
  The host side of the two programs: the neighbour aggregate, the in-degree, and the two ways of normalising.

  Both programs compute, with the same host operations, the in-degree `deg` of every node (ones summed into the
  destination rows) and, for node features `h`, the aggregate `agg h` (each edge's source row times the edge's
  weight, summed into the destination rows). They differ in one place. The kernel program forms the column
  `1 / max deg 1` once and multiplies the aggregate by it; the reference divides the aggregate by the column
  `max deg 1`. Entry by entry these are `a · (1 / m)` and `a / m` with `m = max d 1 ≥ 1`, equal on the extended
  reals for every `a` and `d`. The gathers and the summations into rows are never opened: they are the same
  function of the same arrays on both sides.
-/
import proofs.«104862_j3315714752647_2_alg».proof.Proof.Gen.KernelIdeal
import proofs.«104862_j3315714752647_2_alg».proof.Proof.Gen.ReferenceIdeal
import proofs.«104862_j3315714752647_2_alg».proof.Proof.SageSpec
import proofs.«104862_j3315714752647_2_alg».proof.Proof.LibColBroadcast
import Idealize.ShloMosaic.Lib.IdealHost
import Idealize.ShloMosaic.Lib.ValueIdx

noncomputable section

namespace Cert.Sage.Host

open Idealize.ShloMosaic Idealize.ShloMosaic.ValueIdx

section K
open Cert.KernelIdeal Cert.KernelIdeal.Gen

/-- The all-ones vector over the nodes, as the programs print it: the scalar one spread over `[50000]`. -/
def onesK : (⟨S50000, .f32⟩ : BufTy).Contents (Elt Ideal) :=
  broadcastInDim S50000 ![] bcast_S_S50000 (constant (F := Ideal) S_ .f32 0x3F800000#32)

/-- The in-degree of every node: ones summed into the destination rows, from zero. -/
def degK (dst : (⟨S625000, .i32⟩ : BufTy).Contents (Elt Ideal)) : (⟨S50000, .f32⟩ : BufTy).Contents (Elt Ideal) :=
  Host.scatterAdd scatter_S50000_S625000x1_S625000_n_0_0_1
    (broadcastInDim S50000 ![] bcast_S_S50000 (constant (F := Ideal) S_ .f32 0x00000000#32))
    (broadcastInDim S625000x1 ![0] bcast_S625000_S625000x1_0 dst)
    (broadcastInDim S625000 ![] bcast_S_S625000 (constant (F := Ideal) S_ .f32 0x3F800000#32))

/-- The edge-weighted messages: each edge's source row of `h` (a negative source index wrapped once) times the
    edge's weight, summed into the destination rows, from zero. -/
def aggK (h : (⟨S50000x128, .f32⟩ : BufTy).Contents (Elt Ideal)) (src dst : (⟨S625000, .i32⟩ : BufTy).Contents (Elt Ideal))
    (w : (⟨S625000, .f32⟩ : BufTy).Contents (Elt Ideal)) : (⟨S50000x128, .f32⟩ : BufTy).Contents (Elt Ideal) :=
  Host.scatterAdd scatter_S50000x128_S625000x1_S625000x128_1_0_0_1
    (broadcastInDim S50000x128 ![] bcast_S_S50000x128 (constant (F := Ideal) S_ .f32 0x00000000#32))
    (broadcastInDim S625000x1 ![0] bcast_S625000_S625000x1_0 dst)
    (mulf
      (Host.gather gather_S50000x128_S625000x1_S625000x128_1_0_n_n_0_1_1128 h
        (broadcastInDim S625000x1 ![0] bcast_S625000_S625000x1_0
          (select (cmpi .slt src (broadcastInDim S625000 ![] bcast_S_S625000 (constantI S_ 32 0#32)))
            (addi src (broadcastInDim S625000 ![] bcast_S_S625000 (constantI S_ 32 50000#32))) src)))
      (broadcastInDim S625000x128 ![0, 1] bcast_S625000x1_S625000x128_0_1
        (broadcastInDim S625000x1 ![0] bcast_S625000_S625000x1_0 w)))

end K

section R
open Cert.ReferenceIdeal Cert.ReferenceIdeal.Gen

/-- The all-ones vector over the nodes, as the programs print it: the scalar one spread over `[50000]`. -/
def onesR : (⟨S50000, .f32⟩ : BufTy).Contents (Elt Ideal) :=
  broadcastInDim S50000 ![] bcast_S_S50000 (constant (F := Ideal) S_ .f32 0x3F800000#32)

/-- The in-degree of every node: ones summed into the destination rows, from zero. -/
def degR (dst : (⟨S625000, .i32⟩ : BufTy).Contents (Elt Ideal)) : (⟨S50000, .f32⟩ : BufTy).Contents (Elt Ideal) :=
  Host.scatterAdd scatter_S50000_S625000x1_S625000_n_0_0_1
    (broadcastInDim S50000 ![] bcast_S_S50000 (constant (F := Ideal) S_ .f32 0x00000000#32))
    (broadcastInDim S625000x1 ![0] bcast_S625000_S625000x1_0 dst)
    (broadcastInDim S625000 ![] bcast_S_S625000 (constant (F := Ideal) S_ .f32 0x3F800000#32))

/-- The edge-weighted messages: each edge's source row of `h` (a negative source index wrapped once) times the
    edge's weight, summed into the destination rows, from zero. -/
def aggR (h : (⟨S50000x128, .f32⟩ : BufTy).Contents (Elt Ideal)) (src dst : (⟨S625000, .i32⟩ : BufTy).Contents (Elt Ideal))
    (w : (⟨S625000, .f32⟩ : BufTy).Contents (Elt Ideal)) : (⟨S50000x128, .f32⟩ : BufTy).Contents (Elt Ideal) :=
  Host.scatterAdd scatter_S50000x128_S625000x1_S625000x128_1_0_0_1
    (broadcastInDim S50000x128 ![] bcast_S_S50000x128 (constant (F := Ideal) S_ .f32 0x00000000#32))
    (broadcastInDim S625000x1 ![0] bcast_S625000_S625000x1_0 dst)
    (mulf
      (Host.gather gather_S50000x128_S625000x1_S625000x128_1_0_n_n_0_1_1128 h
        (broadcastInDim S625000x1 ![0] bcast_S625000_S625000x1_0
          (select (cmpi .slt src (broadcastInDim S625000 ![] bcast_S_S625000 (constantI S_ 32 0#32)))
            (addi src (broadcastInDim S625000 ![] bcast_S_S625000 (constantI S_ 32 50000#32))) src)))
      (broadcastInDim S625000x128 ![0, 1] bcast_S625000x1_S625000x128_0_1
        (broadcastInDim S625000x1 ![0] bcast_S625000_S625000x1_0 w)))

end R

/-! ## The two programs' host operations are the same functions -/

theorem onesR_eq : onesR = onesK := rfl
theorem degR_eq (dst : (⟨Cert.KernelIdeal.S625000, .i32⟩ : BufTy).Contents (Elt Ideal)) : degR dst = degK dst := rfl
theorem aggR_eq (h : (⟨Cert.KernelIdeal.S50000x128, .f32⟩ : BufTy).Contents (Elt Ideal)) (src dst : (⟨Cert.KernelIdeal.S625000, .i32⟩ : BufTy).Contents (Elt Ideal))
    (w : (⟨Cert.KernelIdeal.S625000, .f32⟩ : BufTy).Contents (Elt Ideal)) : aggR h src dst w = aggK h src dst w := rfl

/-! ## The two normalisations -/

section Norm
open Cert.KernelIdeal Cert.KernelIdeal.Gen

/-- The kernel program's reciprocal column `[50000, 1]`: one over the clamped in-degree. -/
def recipCol (d : FVec Ideal S50000 .f32) : FVec Ideal S50000x1 .f32 :=
  broadcastInDim S50000x1 ![0] bcast_S50000_S50000x1_0 (Host.divf (F := Ideal) (φ := .f32) onesK (maximumf (F := Ideal) (φ := .f32) d onesK))

/-- The kernel program's normalised aggregate: the aggregate times the reciprocal column spread over the channels. -/
def normMul (a : FVec Ideal S50000x128 .f32) (col : FVec Ideal S50000x1 .f32) : FVec Ideal S50000x128 .f32 :=
  mulf (F := Ideal) (φ := .f32) a (broadcastInDim S50000x128 ![0, 1] bcast_S50000x1_S50000x128_0_1 col)

/-- The reference's normalised aggregate: the aggregate divided by the clamped in-degree spread over the channels. -/
def normDiv (a : FVec Ideal S50000x128 .f32) (d : FVec Ideal S50000 .f32) : FVec Ideal S50000x128 .f32 :=
  Host.divf (F := Ideal) (φ := .f32) a (broadcastInDim S50000x128 ![0, 1] bcast_S50000x1_S50000x128_0_1
    (broadcastInDim S50000x1 ![0] bcast_S50000_S50000x1_0 (maximumf (F := Ideal) (φ := .f32) d onesK)))

theorem onesK_apply (r : Fin 50000) : onesK (ix1 r) = 1 := by
  unfold onesK
  rw [Cert.Lib.ColBroadcast.scalar_apply]
  show Ideal.ofBits .f32 0x3F800000#32 = 1
  exact Ideal.ofBits_one_f32

/-- Multiplying by the reciprocal column is dividing by the clamped degree, entry by entry. -/
theorem norm_eq (a : FVec Ideal S50000x128 .f32) (d : FVec Ideal S50000 .f32) :
    normMul a (recipCol d) = normDiv a d := by
  funext j
  obtain ⟨r, c, rfl⟩ : ∃ (r : Fin 50000) (c : Fin 128), j = ix2 r c := ⟨j 0, j 1, eq_ix2 j⟩
  unfold normMul normDiv recipCol
  show a (ix2 r c) * (broadcastInDim S50000x128 ![0, 1] bcast_S50000x1_S50000x128_0_1 (broadcastInDim S50000x1 ![0] bcast_S50000_S50000x1_0 (Host.divf (F := Ideal) (φ := .f32) onesK (maximumf (F := Ideal) (φ := .f32) d onesK)))) (ix2 r c)
      = Ideal.div (a (ix2 r c)) ((broadcastInDim S50000x128 ![0, 1] bcast_S50000x1_S50000x128_0_1 (broadcastInDim S50000x1 ![0] bcast_S50000_S50000x1_0 (maximumf (F := Ideal) (φ := .f32) d onesK))) (ix2 r c))
  rw [Cert.Lib.ColBroadcast.col_apply (by decide), Cert.Lib.ColBroadcast.col_apply (by decide)]
  show a (ix2 r c) * Ideal.div (onesK (ix1 r)) (max (d (ix1 r)) (onesK (ix1 r))) = Ideal.div (a (ix2 r c)) (max (d (ix1 r)) (onesK (ix1 r)))
  rw [onesK_apply]
  exact Cert.Sage.mul_recip_clamped _ _

end Norm

/-! ## The whole computation, as one function of the argument arrays -/

section Whole
open Cert.KernelIdeal Cert.KernelIdeal.Gen

/-- A weight matrix transposed for the product, as both programs print it. -/
def tr (X : FVec Ideal S128x128 .f32) : FVec Ideal S128x128 .f32 :=
  transpose S128x128 [1, 0] X transposes_S128x128_S128x128_1_0

/-- The hidden features: the first layer of the node features and their normalised aggregate, then max(·, 0). -/
def hidden (x : FVec Ideal S50000x128 .f32) (src dst : (⟨S625000, .i32⟩ : BufTy).Contents (Elt Ideal)) (w : FVec Ideal S625000 .f32)
    (ws wn : FVec Ideal S128x128 .f32) (b : FVec Ideal S128 .f32) : FVec Ideal S50000x128 .f32 :=
  Cert.Sage.layerRelu x (normDiv (aggK x src dst w) (degK dst)) (tr ws) (tr wn) b

/-- The result: the second layer of the hidden features and their normalised aggregate. -/
def output (x : FVec Ideal S50000x128 .f32) (src dst : (⟨S625000, .i32⟩ : BufTy).Contents (Elt Ideal)) (w : FVec Ideal S625000 .f32)
    (ws1 wn1 : FVec Ideal S128x128 .f32) (b1 : FVec Ideal S128 .f32) (ws2 wn2 : FVec Ideal S128x128 .f32) (b2 : FVec Ideal S128 .f32) :
    FVec Ideal S50000x128 .f32 :=
  Cert.Sage.layer (hidden x src dst w ws1 wn1 b1) (normDiv (aggK (hidden x src dst w ws1 wn1 b1) src dst w) (degK dst)) (tr ws2) (tr wn2) b2

end Whole

end Cert.Sage.Host

end
-- ==== Proof.KernelValue.lean ====
/-
  The idealized kernel program's result array, as one function of the argument arrays.

  Reading the run backwards: the result array is what the second region's write-backs leave, the second layer of the
  arrays that region finds; those are the first region's output (the hidden features), its normalised aggregate
  computed by the second stretch of host operations, and the second layer's transposed weights and bias row. The
  first region's output is the first layer, followed by max(·, 0), of the node features, their normalised
  aggregate computed by the first stretch, and the first layer's transposed weights and bias row. The reciprocal
  column of the clamped in-degree is computed once, in the first stretch, and read again by the second.
  Multiplying by it is dividing by the clamped degree, which puts the result in the specification's form.
-/
import proofs.«104862_j3315714752647_2_alg».proof.Proof.KernelRun
import proofs.«104862_j3315714752647_2_alg».proof.Proof.KernelRegion0
import proofs.«104862_j3315714752647_2_alg».proof.Proof.KernelRegion1
import proofs.«104862_j3315714752647_2_alg».proof.Proof.SageHost
import Idealize.ShloMosaic.Lib.StableHlo.Run
import Idealize.ShloMosaic.Lib.ValueLayout

set_option maxRecDepth 16384

noncomputable section

namespace Cert.KernelIdeal.Whole

open Cert.KernelIdeal Cert.KernelIdeal.Gen Cert.Sage Cert.Sage.Host
open Idealize.ShloMosaic Idealize.ShloMosaic.TcCoe Idealize.ShloMosaic.ValueIdx Idealize.SL.Sem

variable (m : (ℓ : Loc nD τ sig) → Buf (Elt Ideal) ℓ) (ρ : Dev nD → PrngReg)

/-- A bias vector cast to one row and read back along that row is the vector. -/
theorem biasRow_eq (b : FVec Ideal S128 .f32) :
    (fun i : Cert.Sage.SB.Idx => (shapeCast S1x128 b shapeCasts_S128_S1x128 : S1x128.Idx → EReal) (ix2 (0 : Fin 1) (i 0))) = b := by
  funext i
  refine (shapeCast_a_1a_apply (a := 128) b shapeCasts_S128_S1x128 0 (i 0)).trans ?_
  exact congrArg b (eq_ix1 i).symm

/-! ## What the first region finds: the first stretch of host operations over the launch memory -/

theorem V1_arg0 (c : Dev nD) : V1 m ρ c main_arg0 = (m ((c : Thread nD τ).loc main_arg0)) := by
  show StableHlo.after hostOps0 (W0 m ρ c) (Proc.devRef .tc main_arg0) = _
  after_results_simp <;> rfl
theorem V1_v23 (c : Dev nD) : V1 m ρ c main_v23 = normMul (aggK (m ((c : Thread nD τ).loc main_arg0)) (m ((c : Thread nD τ).loc main_arg1)) (m ((c : Thread nD τ).loc main_arg2)) (m ((c : Thread nD τ).loc main_arg3))) (recipCol (degK (m ((c : Thread nD τ).loc main_arg2)))) := by
  show StableHlo.after hostOps0 (W0 m ρ c) (Proc.devRef .tc main_v23) = _
  after_results_simp <;> rfl
theorem V1_v24 (c : Dev nD) : V1 m ρ c main_v24 = tr (m ((c : Thread nD τ).loc main_arg4)) := by
  show StableHlo.after hostOps0 (W0 m ρ c) (Proc.devRef .tc main_v24) = _
  after_results_simp <;> rfl
theorem V1_v25 (c : Dev nD) : V1 m ρ c main_v25 = tr (m ((c : Thread nD τ).loc main_arg5)) := by
  show StableHlo.after hostOps0 (W0 m ρ c) (Proc.devRef .tc main_v25) = _
  after_results_simp <;> rfl
theorem V1_v26 (c : Dev nD) : V1 m ρ c main_v26 = shapeCast S1x128 (m ((c : Thread nD τ).loc main_arg6)) shapeCasts_S128_S1x128 := by
  show StableHlo.after hostOps0 (W0 m ρ c) (Proc.devRef .tc main_v26) = _
  after_results_simp <;> rfl

/-- The hidden features in the kernel program's own form: the aggregate times the reciprocal column. -/
def hiddenMul (c : Dev nD) : FVec Ideal S50000x128 .f32 :=
  layerRelu (m ((c : Thread nD τ).loc main_arg0)) (normMul (aggK (m ((c : Thread nD τ).loc main_arg0)) (m ((c : Thread nD τ).loc main_arg1)) (m ((c : Thread nD τ).loc main_arg2)) (m ((c : Thread nD τ).loc main_arg3))) (recipCol (degK (m ((c : Thread nD τ).loc main_arg2))))) (tr (m ((c : Thread nD τ).loc main_arg4))) (tr (m ((c : Thread nD τ).loc main_arg5))) (m ((c : Thread nD τ).loc main_arg6))

/-- The first region's output array holds the hidden features. -/
theorem W2_v27 (c : Dev nD) : W2 m ρ c (Proc.devRef .tc main_v27) = hiddenMul m c := by
  have e : W2 m ρ c (Proc.devRef .tc main_v27) = (dat0 (V1 m ρ) c).arrAt 5 cfg0.N := W2_arr m ρ c 5
  rw [e, Cert.KernelIdeal.Region0.final (V1 m ρ) c]
  unfold Cert.KernelIdeal.Region0.G hiddenMul
  rw [V1_arg0, V1_v23, V1_v24, V1_v25, V1_v26, biasRow_eq]

/-! ## What the first region leaves untouched: read back to the first stretch or to the launch memory -/

theorem W2_arg1 (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results_simp <;> rfl)
theorem W2_arg2 (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results_simp <;> rfl)
theorem W2_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results_simp <;> rfl)
theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)
theorem W2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp <;> rfl)
theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)
theorem W2_v8 (c : Dev nD) : W2 m ρ c (Proc.devRef .tc main_v8) = recipCol (degK (m ((c : Thread nD τ).loc main_arg2))) :=
  (W2_of_ne m ρ c main_v8 (by decide)).trans (by
    show StableHlo.after hostOps0 (W0 m ρ c) (Proc.devRef .tc main_v8) = _
    after_results_simp <;> rfl)

/-! ## What the second region finds: the second stretch over the first region's exit contents -/

theorem V3_v27 (c : Dev nD) : V3 m ρ c main_v27 = W2 m ρ c (Proc.devRef .tc main_v27) := by
  show StableHlo.after hostOps1 (W2 m ρ c) (Proc.devRef .tc main_v27) = _
  after_results_simp <;> rfl
theorem V3_v42 (c : Dev nD) : V3 m ρ c main_v42
    = normMul (aggK (W2 m ρ c (Proc.devRef .tc main_v27)) (W2 m ρ c (Proc.devRef .tc main_arg1)) (W2 m ρ c (Proc.devRef .tc main_arg2)) (W2 m ρ c (Proc.devRef .tc main_arg3)))
        (W2 m ρ c (Proc.devRef .tc main_v8)) := by
  show StableHlo.after hostOps1 (W2 m ρ c) (Proc.devRef .tc main_v42) = _
  after_results_simp <;> rfl
theorem V3_v43 (c : Dev nD) : V3 m ρ c main_v43 = tr (W2 m ρ c (Proc.devRef .tc main_arg7)) := by
  show StableHlo.after hostOps1 (W2 m ρ c) (Proc.devRef .tc main_v43) = _
  after_results_simp <;> rfl
theorem V3_v44 (c : Dev nD) : V3 m ρ c main_v44 = tr (W2 m ρ c (Proc.devRef .tc main_arg8)) := by
  show StableHlo.after hostOps1 (W2 m ρ c) (Proc.devRef .tc main_v44) = _
  after_results_simp <;> rfl
theorem V3_v45 (c : Dev nD) : V3 m ρ c main_v45 = shapeCast S1x128 (W2 m ρ c (Proc.devRef .tc main_arg9)) shapeCasts_S128_S1x128 := by
  show StableHlo.after hostOps1 (W2 m ρ c) (Proc.devRef .tc main_v45) = _
  after_results_simp <;> rfl

/-! ## The result -/

/-- The hidden features in the kernel program's form are the specification's. -/
theorem hiddenMul_eq (c : Dev nD) : hiddenMul m c = Cert.Sage.Host.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold hiddenMul Cert.Sage.Host.hidden
  rw [norm_eq]

/-- The result array after the run is the specification's function of the argument arrays. -/
theorem result_eq (c : Dev nD) : V4 m ρ c main_v46 = Cert.Sage.Host.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e : V4 m ρ c main_v46 = (dat1 (V3 m ρ) c).arrAt 5 cfg1.N := W4_arr m ρ c 5
  rw [e, Cert.KernelIdeal.Region1.final (V3 m ρ) c]
  unfold Cert.KernelIdeal.Region1.G Cert.Sage.Host.output
  rw [V3_v27, V3_v42, V3_v43, V3_v44, V3_v45, W2_v27, W2_arg1, W2_arg2, W2_arg3, W2_v8, W2_arg7, W2_arg8, W2_arg9, biasRow_eq, hiddenMul_eq, norm_eq]

end Cert.KernelIdeal.Whole

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«104862_j3315714752647_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.RefValue.lean ====
/-
  The reference's result, as the same function of the argument arrays.

  The reference computes each layer on the host: two matrix products over whole arrays (the weight matrices
  transposed first), their sum, plus the bias vector placed as one row and repeated over the rows; the first layer
  is followed by a maximum with zero. On the extended reals a host matrix product read at `(r, c)` is the sum over
  the contracted coordinate of left `(r, k)` times right `(k, c)`, so these operations are the layer of the
  specification, entry by entry. The gathers, the summations into rows and the division by the clamped degree are
  left as they are: they are the same functions the kernel program applies.
-/
import proofs.«104862_j3315714752647_2_alg».proof.Proof.Gen.ReferenceIdeal.Run
import proofs.«104862_j3315714752647_2_alg».proof.Proof.SageHost
import proofs.«104862_j3315714752647_2_alg».proof.Proof.LibPlainDot
import proofs.«104862_j3315714752647_2_alg».proof.Proof.LibDenseLayer
import proofs.«104862_j3315714752647_2_alg».proof.Proof.LibColBroadcast
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem

/-! ## The host's contraction: rows of the left array against columns of the weight matrix -/

theorem dot_l0 (j : S50000x128.Idx) (q : dot_S50000x128_S128x128_S50000x128_1_0_0_1_n_n.contr.Idx) : (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dot_l1 (j : S50000x128.Idx) (q : dot_S50000x128_S128x128_S50000x128_1_0_0_1_n_n.contr.Idx) : (dot_S50000x128_S128x128_S50000x128_1_0_0_1_n_n.lhsIdx j q 1).val = (q ⟨0, by decide⟩).val :=
  dot_S50000x128_S128x128_S50000x128_1_0_0_1_n_n.lhsIdx_val_of_single rfl j q
theorem dot_r0 (j : S50000x128.Idx) (q : dot_S50000x128_S128x128_S50000x128_1_0_0_1_n_n.contr.Idx) : (dot_S50000x128_S128x128_S50000x128_1_0_0_1_n_n.rhsIdx j q 0).val = (q ⟨0, by decide⟩).val :=
  dot_S50000x128_S128x128_S50000x128_1_0_0_1_n_n.rhsIdx_val_of_single rfl j q
theorem dot_r1 (j : S50000x128.Idx) (q : dot_S50000x128_S128x128_S50000x128_1_0_0_1_n_n.contr.Idx) : (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- A host matrix product at `(r, c)`: the sum over the contracted coordinate. -/
theorem dot_apply (L : FVec Ideal S50000x128 .f32) (R : FVec Ideal S128x128 .f32) (r : Fin 50000) (c : Fin 128) :
    Host.dotGeneral (F := Ideal) dot_S50000x128_S128x128_S50000x128_1_0_0_1_n_n none L R (ix2 r c) = ∑ k : Fin 128, L (ix2 r k) * R (ix2 k c) := by
  simp only [Host.dotGeneral]
  rw [Ideal.dotGeneral_apply]
  exact Cert.Lib.PlainDot.sum_rows_cols dot_S50000x128_S128x128_S50000x128_1_0_0_1_n_n rfl rfl dot_l0 dot_l1 dot_r0 dot_r1 L R (ix2 r c)

/-- The host's two products, their sum and the repeated bias row are one layer. -/
theorem refLayer_eq (h hn : FVec Ideal S50000x128 .f32) (ws wn : FVec Ideal S128x128 .f32) (b : FVec Ideal S128 .f32) :
    addf (F := Ideal) (φ := .f32)
        (addf (F := Ideal) (φ := .f32) (Host.dotGeneral (F := Ideal) dot_S50000x128_S128x128_S50000x128_1_0_0_1_n_n none h ws) (Host.dotGeneral (F := Ideal) dot_S50000x128_S128x128_S50000x128_1_0_0_1_n_n none hn wn))
        (broadcastInDim S50000x128 ![0, 1] bcast_S1x128_S50000x128_0_1 (broadcastInDim S1x128 ![1] bcast_S128_S1x128_1 b))
      = Cert.Sage.layer h hn ws wn b := by
  funext j
  obtain ⟨r, c, rfl⟩ : ∃ (r : Fin 50000) (c : Fin 128), j = ix2 r c := ⟨j 0, j 1, eq_ix2 j⟩
  show (Host.dotGeneral (F := Ideal) dot_S50000x128_S128x128_S50000x128_1_0_0_1_n_n none h ws (ix2 r c) + Host.dotGeneral (F := Ideal) dot_S50000x128_S128x128_S50000x128_1_0_0_1_n_n none hn wn (ix2 r c))
      + (broadcastInDim S50000x128 ![0, 1] bcast_S1x128_S50000x128_0_1 (broadcastInDim S1x128 ![1] bcast_S128_S1x128_1 b)) (ix2 r c)
      = Cert.Sage.layerAt h hn ws wn b r c
  rw [dot_apply, dot_apply, Cert.Lib.DenseLayer.bias_apply (by decide)]
  rfl

/-- The maximum with the zero array is max(·, 0) entry by entry. -/
theorem relu_eq (f : FVec Ideal S50000x128 .f32) :
    maximumf (F := Ideal) (φ := .f32) f (broadcastInDim S50000x128 ![] bcast_S_S50000x128 (constant (F := Ideal) S_ .f32 0x00000000#32))
      = fun j => max (f j) 0 := by
  funext j
  show max (f j) ((broadcastInDim S50000x128 ![] bcast_S_S50000x128 (constant (F := Ideal) S_ .f32 0x00000000#32)) j) = max (f j) 0
  rw [Cert.Lib.ColBroadcast.scalar_apply]
  show max (f j) (Ideal.ofBits .f32 0x00000000#32) = max (f j) 0
  rw [Ideal.ofBits_zero_f32]

/-- The reference run's result term is the specification's function of the argument arrays. -/
theorem result_eq (m : (ℓ : Loc nD τ sig) → Buf (Elt Ideal) ℓ) (c : Dev nD) :
    res_main_v60 (F := Ideal) m c = Cert.Sage.Host.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v60
  rw [refLayer_eq, refLayer_eq, relu_eq]
  rfl

end Cert.ReferenceIdeal.RefValue

end
-- ==== Proof.lean ====
/-
  Two layers of a mean-aggregating graph convolution: the Pallas program against its jnp reference, on the extended reals.

  Both programs compute, for node features `x`, edges `src → dst` with weights `w`, and per layer two weight matrices
  and a bias,
      h  = max (x·Wₛ₁ᵀ + n(x)·Wₙ₁ᵀ + b₁) 0,      out = h·Wₛ₂ᵀ + n(h)·Wₙ₂ᵀ + b₂,
  where `n(h)` is the weighted sum of the source rows of `h` into the destination rows, normalised by the in-degree
  clamped below at one. The kernel program does the gathers and row sums on the host and each dense layer in a
  pallas_call over 25 blocks of 2000 rows; the reference does everything on the host. They differ in three ways, none
  of which changes an extended real: the kernel rounds the matrix unit's inputs to bf16 (the identity here); a matrix
  product is the same sum over the contracted coordinate whether the matrix unit forms it block of rows by block of
  rows or the host forms it whole; and the kernel multiplies the aggregate by `1 / max deg 1` where the reference
  divides by `max deg 1`, which agree because `max deg 1 ≥ 1` is not zero (SageSpec.lean, `mul_recip_clamped`). No
  finiteness of the inputs is used.

  The modules: SageSpec (one layer, entry by entry, and the law), SageHost (the host operations both programs share,
  the two normalisations, the whole function `output`), KernelBody (what a grid point stores), KernelRegion0 /
  KernelRegion1 (each region's array as the layer of what it finds), KernelRun (the kernel program's run with its
  result named), KernelValue (the result array is `output` of the arguments), RefValue (so is the reference's).
  The three frames are the generated ones; the idealization rewrote nothing, so `preserves` is trivial.
-/
import proofs.«104862_j3315714752647_2_alg».proof.Defs
import proofs.«104862_j3315714752647_2_alg».proof.Proof.Gen.Kernel
import proofs.«104862_j3315714752647_2_alg».proof.Proof.Gen.Kernel.Skeleton
import proofs.«104862_j3315714752647_2_alg».proof.Proof.Gen.Kernel.Launch
import proofs.«104862_j3315714752647_2_alg».proof.Proof.Gen.Kernel.Points
import proofs.«104862_j3315714752647_2_alg».proof.Proof.Gen.Kernel.Frame
import proofs.«104862_j3315714752647_2_alg».proof.Proof.Gen.KernelIdeal
import proofs.«104862_j3315714752647_2_alg».proof.Proof.Gen.KernelIdeal.Skeleton
import proofs.«104862_j3315714752647_2_alg».proof.Proof.Gen.KernelIdeal.Launch
import proofs.«104862_j3315714752647_2_alg».proof.Proof.Gen.KernelIdeal.Points
import proofs.«104862_j3315714752647_2_alg».proof.Proof.Gen.KernelIdeal.Frame
import proofs.«104862_j3315714752647_2_alg».proof.Proof.Gen.ReferenceIdeal
import proofs.«104862_j3315714752647_2_alg».proof.Proof.Gen.Pre_finite_inputs
import proofs.«104862_j3315714752647_2_alg».proof.Proof.Gen.ReferenceIdeal.Run
import proofs.«104862_j3315714752647_2_alg».proof.Proof.KernelRun
import proofs.«104862_j3315714752647_2_alg».proof.Proof.KernelValue
import proofs.«104862_j3315714752647_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `output` of the argument arrays, which agree. -/
theorem algebraic : Cert.algebraic_KernelIdeal_ReferenceIdeal := by
  intro m ρ m' ρ' _ hagree
  refine ⟨fun c => Cert.Sage.Host.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Whole.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.RefValue.result_eq m' c, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
